-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S53248x128 : Shape := ⟨2, ![53248, 128]⟩
abbrev S4096x128 : Shape := ⟨2, ![4096, 128]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S1x64 : Shape := ⟨2, ![1, 64]⟩
abbrev S1x1 : Shape := ⟨2, ![1, 1]⟩
abbrev S64x64 : Shape := ⟨2, ![64, 64]⟩

abbrev nBuf : Space → Nat
  | .hbm => 143
  | .vmem => 16
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S_, .f32⟩
  | 17 => ⟨S53248x128, .f32⟩
  | 18 => ⟨S53248x128, .f32⟩
  | 19 => ⟨S50000x128, .f32⟩
  | 20 => ⟨S50000, .i32⟩
  | 21 => ⟨S850000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S_, .f32⟩
  | 73 => ⟨S53248x128, .f32⟩
  | 74 => ⟨S53248x128, .f32⟩
  | 75 => ⟨S50000x128, .f32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S64x128, .f32⟩
  | 126 => ⟨S50000x1, .i32⟩
  | 127 => ⟨S64x128, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S64, .f32⟩
  | 4 => ⟨S50000x1, .i32⟩
  | 5 => ⟨S64, .f32⟩
  | 6 => ⟨S_, .f32⟩
  | 7 => ⟨S64, .f32⟩
  | 8 => ⟨S64, .f32⟩
  | 9 => ⟨S64x1, .f32⟩
  | 10 => ⟨S64x128, .f32⟩
  | 11 => ⟨S64x128, .f32⟩
  | 12 => ⟨S1x64, .f32⟩
  | 13 => ⟨S1x1, .f32⟩
  | 14 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S128x128, .f32⟩
  | .local _ .vmem, ⟨8, _⟩ => ⟨S4096x128, .f32⟩
  | .local _ .vmem, ⟨9, _⟩ => ⟨S4096x128, .f32⟩
  | .local _ .vmem, ⟨10, _⟩ => ⟨S64x128, .f32⟩
  | .local _ .vmem, ⟨11, _⟩ => ⟨S128x64, .f32⟩
  | .local _ .vmem, ⟨12, _⟩ => ⟨S1x64, .f32⟩
  | .local _ .vmem, ⟨13, _⟩ => ⟨S64x1, .f32⟩
  | .local _ .vmem, ⟨14, _⟩ => ⟨S1x1, .f32⟩
  | .local _ .vmem, ⟨15, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_c_8 : Ref sig .tc := ⟨.hbm, 71, rfl⟩
abbrev main_call2_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_19 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_21 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  pads_S50000x128_S53248x128_032480_000 : S50000x128.Pads (![0, 0] : Fin 2 → Nat) ![3248, 0] ![0, 0] S53248x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S53248x128_S50000x128_0_0 : S53248x128.Slices ![0, 0] S50000x128
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S4096x128_S128x128_S4096x128_1_0_0_1_n_n_wf : DotDims.WF S4096x128 S128x128 S4096x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S53248x128.size a
  hwx0_0 : ∀ i : grid0.Coords, EltTy.bits .f32 = 32 ∨ (Rect.block (s := S53248x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S53248x128.size a
  hwx0_2 : ∀ i : grid0.Coords, EltTy.bits .f32 = 32 ∨ (Rect.block (s := S53248x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S53248x128.size a
  hwx1_0 : ∀ i : grid1.Coords, EltTy.bits .f32 = 32 ∨ (Rect.block (s := S53248x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S53248x128.size a
  hwx1_2 : ∀ i : grid1.Coords, EltTy.bits .f32 = 32 ∨ (Rect.block (s := S53248x128) S4096x128.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v4) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v100) false false (stage2_0 0) (sem2_0 0) (Memref.isWhole_whole _) (hstage2_0 0)

abbrev win2_1 : Pipeline.Window sig grid2 :=
  Pipeline.Window.whole (Memref.whole main_arg7) false false (stage2_1 0) (sem2_1 0) (Memref.isWhole_whole _) (hstage2_1 0)

abbrev win2_2 : Pipeline.Window sig grid2 :=
  Pipeline.Window.whole (Memref.whole main_v101) false false (stage2_2 0) (sem2_2 0) (Memref.isWhole_whole _) (hstage2_2 0)

abbrev win2_3 : Pipeline.Window sig grid2 :=
  Pipeline.Window.whole (Memref.whole main_arg9) false false (stage2_3 0) (sem2_3 0) (Memref.isWhole_whole _) (hstage2_3 0)

abbrev win2_4 : Pipeline.Window sig grid2 :=
  Pipeline.Window.whole (Memref.whole main_v102) false false (stage2_4 0) (sem2_4 0) (Memref.isWhole_whole _) (hstage2_4 0)

abbrev win2_5 : Pipeline.Window sig grid2 :=
  Pipeline.Window.whole (Memref.whole main_v103) true false (stage2_5 0) (sem2_5 0) (Memref.isWhole_whole _) (hstage2_5 0)

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64x64 : Shape := ⟨2, ![64, 64]⟩
abbrev S1x64 : Shape := ⟨2, ![1, 64]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x128, .f32⟩
  | 54 => ⟨S850000x1, .f32⟩
  | 55 => ⟨S850000x128, .f32⟩
  | 56 => ⟨S850000x128, .f32⟩
  | 57 => ⟨S_, .f32⟩
  | 58 => ⟨S50000x128, .f32⟩
  | 59 => ⟨S850000x1, .i32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S50000, .i32⟩
  | 69 => ⟨S850000, .i32⟩
  | 70 => ⟨S850000, .i32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S50000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S64x128, .f32⟩
  | 118 => ⟨S50000x1, .i32⟩
  | 119 => ⟨S64x128, .f32⟩
  | 120 => ⟨S_, .f32⟩
  | 121 => ⟨S50000, .f32⟩
  | 122 => ⟨S_, .f32⟩
  | 123 => ⟨S64, .f32⟩
  | 124 => ⟨S50000x1, .i32⟩
  | 125 => ⟨S64, .f32⟩
  | 126 => ⟨S_, .f32⟩
  | 127 => ⟨S64, .f32⟩
  | _ => ⟨S50000x128, .f32⟩

abbrev hbmTy0_1 (i : Nat) : BufTy := match i % 128 with
  | 0 => ⟨S64, .f32⟩
  | 1 => ⟨S64x1, .f32⟩
  | 2 => ⟨S64x128, .f32⟩
  | 3 => ⟨S64x128, .f32⟩
  | 4 => ⟨S64x64, .f32⟩
  | 5 => ⟨S1x64, .f32⟩
  | 6 => ⟨S64x64, .f32⟩
  | 7 => ⟨S64x64, .f32⟩
  | 8 => ⟨S_, .f32⟩
  | 9 => ⟨S64x64, .f32⟩
  | 10 => ⟨S64x64, .f32⟩
  | 11 => ⟨S64x1, .f32⟩
  | 12 => ⟨S1x1, .f32⟩
  | 13 => ⟨S64x1, .f32⟩
  | 14 => ⟨S64x1, .f32⟩
  | 15 => ⟨S64x1, .f32⟩
  | 16 => ⟨S64x1, .f32⟩
  | 17 => ⟨S_, .f32⟩
  | 18 => ⟨S64x1, .f32⟩
  | 19 => ⟨S64x1, .f32⟩
  | 20 => ⟨S_, .f32⟩
  | 21 => ⟨S64x1, .f32⟩
  | 22 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call1_cst : Ref sig .tc := ⟨.hbm, 136, rfl⟩
abbrev main_call1_v0 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_20 : Ref sig .tc := ⟨.hbm, 145, rfl⟩
abbrev main_v108 : Ref sig .tc := ⟨.hbm, 146, rfl⟩
abbrev main_v109 : Ref sig .tc := ⟨.hbm, 147, rfl⟩
abbrev main_cst_21 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RunValue.lean ====
/-
  The kernel program's run with its result named.

  Every weakly fair execution of the program ends with each unscoped buffer at the contents the last segment
  boundary assigns it: the arguments as launched and the result buffer at the last region's folded write-backs.
  This is the launch over the program's ten segments (host stretches and the three regions) once more, keeping,
  besides the arguments, what the final state holds at the result buffer.
-/
import proofs.«181334_j67791763800740_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents and the arguments unchanged. -/
theorem run : θ_run defs (onTc (τ := τ) (main (F := F))) ⟨m, fun _ => 0, ρ⟩ (fun r => ∀ c : Dev nD,
      r.2.mem ((c.tc : Thread nD τ).loc main_v103) = W10 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v103 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.Spec.lean ====
/-
  What the two dense stages compute, as plain functions of their operands.

  * `linOut xp w`: every row of the (zero-padded) node-feature matrix `xp` against the weight matrix `w`:
    entry (r, j) is the sum over k of xp[r, k] · w[k, j] on the extended reals.
  * `refCls p w1 b1 w2 b2`: the classifier head as the reference spells it,
    sigmoid((relu(p · w1 + b1)) · w2 + b2) with the sigmoid written out as 1 / (1 + exp(−z)).
-/
import proofs.«181334_j67791763800740_1_alg».proof.KernelIdeal
import proofs.«181334_j67791763800740_1_alg».proof.ReferenceIdeal
import proofs.«181334_j67791763800740_1_alg».proof.Proof.Gen.KernelIdeal
import proofs.«181334_j67791763800740_1_alg».proof.Proof.Gen.ReferenceIdeal
import Idealize.ShloMosaic.Lib.ValueIdx
import Idealize.ShloMosaic.PureOps.Ideal

noncomputable section

namespace Cert.Spec

open Idealize.ShloMosaic

/-- Row r of the padded features against column j of the weights: Σ_k xp[r, k] · w[k, j]. -/
def linOut (xp : FVec Ideal Cert.KernelIdeal.S53248x128 .f32) (w : FVec Ideal Cert.KernelIdeal.S128x128 .f32) :
    FVec Ideal Cert.KernelIdeal.S53248x128 .f32 :=
  fun i => ∑ k : Fin 128, xp (ValueIdx.ix2 (i 0 : Fin 53248) k) * w (ValueIdx.ix2 k (i 1 : Fin 128))

section
open Cert.ReferenceIdeal Cert.ReferenceIdeal.Gen

/-- The classifier head in the reference's own operations: two dense layers with a ReLU between them,
    then 1 / (1 + exp(−z)). -/
def refCls (p : FVec Ideal S64x128 .f32) (w1 : FVec Ideal S128x64 .f32) (b1 : FVec Ideal S64 .f32)
    (w2 : FVec Ideal S64x1 .f32) (b2 : FVec Ideal S1 .f32) : FVec Ideal S64x1 .f32 :=
  Host.divf (broadcastInDim S64x1 ![] bcast_S_S64x1 (constant S_ .f32 0x3F800000#32))
    (addf (broadcastInDim S64x1 ![] bcast_S_S64x1 (constant S_ .f32 0x3F800000#32))
      (Host.exp (Host.negf (addf
        (Host.dotGeneral dot_S64x64_S64x1_S64x1_1_0_0_1_n_n none
          (maximumf
            (addf (Host.dotGeneral dot_S64x128_S128x64_S64x64_1_0_0_1_n_n none p w1)
              (broadcastInDim S64x64 ![0, 1] bcast_S1x64_S64x64_0_1 (broadcastInDim S1x64 ![1] bcast_S64_S1x64_1 b1)))
            (broadcastInDim S64x64 ![] bcast_S_S64x64 (constant S_ .f32 0x00000000#32)))
          w2)
        (broadcastInDim S64x1 ![0, 1] bcast_S1x1_S64x1_0_1 (broadcastInDim S1x1 ![1] bcast_S1_S1x1_1 b2))))))
end

end Cert.Spec

end
-- ==== Proof.LinearBlocks.lean ====
/-
  The two dense stages, from row blocks to the whole output array.

  Each stage multiplies a 53248 × 128 matrix of (zero-padded) node features by a 128 × 128 weight matrix, thirteen
  blocks of 4096 rows at a time: grid point t reads rows 4096·t … 4096·t + 4095 of the features and the whole weight
  matrix, and writes the same rows of the product. On the extended reals the change of float format on the way into
  the product is the identity and the product into a zero accumulator is the plain sum, so the block written at
  point t, at row p and column q, is Σ_k x[4096·t + p, k] · w[k, q]: rows 4096·t … of `Cert.Spec.linOut x w`.
  Row r lies in the block of point r / 4096 (53248 = 13 · 4096), so the blocks cover the array and the array
  after the stage is `linOut x w` — for any contents the stage finds its operands at.
-/
import proofs.«181334_j67791763800740_1_alg».proof.Proof.Spec
import proofs.«181334_j67791763800740_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.LinBlocks

open Cert.KernelIdeal Cert.KernelIdeal.Gen

/-! ## The product's operand indices: output (r, c) and contraction index k read the left operand at (r, k), the right at (k, c) -/

theorem lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_contr (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_contr (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem hz : (![0, 0] : Fin 2 → Nat) = fun _ => 0 := funext fun a => by fin_cases a <;> rfl

/-! ## The first dense stage -/

section
/-- The stored value at row p, column q of a block: the sum over k of x0[p, k] · x1[k, q]. -/
theorem pay0_apply (x0 : Vec Ideal S4096x128 .f32) (x1 : Vec Ideal S128x128 .f32) (p : Fin 4096) (q : Fin 128) :
    k0_pay1 (F := Ideal) x0 x1 (ix2 p q) = ∑ k : Fin 128, x0 (ix2 p k) * x1 (ix2 k q) := by
  unfold k0_pay1
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_row _ _
    | ⟨1, _⟩ => exact (lhs_contr _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_contr _ _).trans hk
    | ⟨1, _⟩ => exact rhs_col _ _)
  rw [el, er, shapeCast_self]
  rfl

/-- What the body leaves in the output block, at row p and column q: the row of the feature block against the column of the weight block. -/
theorem out0_apply (x0 : Vec Ideal S4096x128 .f32) (x1 : Vec Ideal S128x128 .f32) (p : Fin 4096) (q : Fin 128) :
    out0_2 (F := Ideal) x0 x1 (ix2 p q) = ∑ k : Fin 128, x0 (ix2 p k) * x1 (ix2 k q) := by
  unfold out0_2
  rw [View.canon_unit_zero hz]
  simp only [View.ld_unit_zero (S := S4096x128) hz, View.ld_unit_zero (S := S128x128) hz]
  exact pay0_apply x0 x1 p q

/-- If the feature block holds rows 4096·s … 4096·s + 4095 of xp and the weight block is all of w, the output
    block is the same rows of linOut xp w. -/
theorem out0_eq_rows (x0 : Vec Ideal S4096x128 .f32) (x1 : Vec Ideal S128x128 .f32)
    (xp : FVec Ideal S53248x128 .f32) (w : FVec Ideal S128x128 .f32) (s : Nat)
    (h0 : ∀ (p : Fin 4096) (k : Fin 128) (r : Fin 53248), r.val = 4096 * s + p.val → x0 (ix2 p k) = xp (ix2 r k))
    (h1 : ∀ (k q : Fin 128), x1 (ix2 k q) = w (ix2 k q))
    (y : S4096x128.Idx) (i : S53248x128.Idx) (hi0 : (i 0).val = 4096 * s + (y 0).val) (hi1 : (i 1).val = (y 1).val) :
    out0_2 (F := Ideal) x0 x1 y = Cert.Spec.linOut xp w i := by
  obtain ⟨p, q, rfl⟩ : ∃ (p : Fin 4096) (q : Fin 128), y = ix2 p q := ⟨y 0, y 1, eq_ix2 y⟩
  rw [out0_apply]
  unfold Cert.Spec.linOut
  refine Finset.sum_congr rfl fun k _ => ?_
  rw [h0 p k (i 0) hi0, h1 k q]
  have e : (i 1 : Fin 128) = q := Fin.ext hi1
  rw [e]

/-- The block-index maps over the 13 grid points: the feature and output blocks move down one block of rows per point,
    the weight block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature block at point t holds rows 4096·t … 4096·t + 4095 of the padded features. -/
theorem iblk0_0_apply (c : Dev nD) (t : Fin cfg0.N) (p : Fin 4096) (k : Fin 128) (r : Fin 53248)
    (hr : r.val = 4096 * t.val + p.val) :
    (iblk0 (F := Ideal) V c 0 t : Vec Ideal S4096x128 .f32) (ix2 p k) = (V c main_v4 : S53248x128.Idx → EReal) (ix2 r k) := by
  obtain ⟨e0, e1, -, -, -, -⟩ := idx_facts0 t
  unfold iblk0
  rw [View.read_apply]
  show V c main_v4 _ = V c main_v4 _
  refine congrArg _ ?_
  funext a
  apply Fin.ext
  match a with
  | ⟨0, _⟩ => show win0_0.index t (0 : Fin 2) * 4096 + 1 * p.val = r.val; rw [e0, hr]; omega
  | ⟨1, _⟩ => show win0_0.index t (1 : Fin 2) * 128 + 1 * k.val = k.val; rw [e1]; omega

/-- The weight block is the whole weight matrix at every point. -/
theorem iblk0_1_apply (c : Dev nD) (t : Fin cfg0.N) (k q : Fin 128) :
    (iblk0 (F := Ideal) V c 1 t : Vec Ideal S128x128 .f32) (ix2 k q) = (V c main_arg3 : S128x128.Idx → EReal) (ix2 k q) := by
  obtain ⟨-, -, e2, e3, -, -⟩ := idx_facts0 t
  unfold iblk0
  rw [View.read_apply]
  show V c main_arg3 _ = V c main_arg3 _
  refine congrArg _ ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is rows 4096·t … 4096·t + 4095 of linOut of the features and weights as the stage finds them. -/
theorem flushed0_eq (c : Dev nD) (t : Fin cfg0.N) :
    (dat0 (F := Ideal) V c).flushed 2 t
      = ((cfg0.win 2).blk t).view.read (Elt Ideal) (Cert.Spec.linOut (V c main_v4) (V c main_arg3)) := by
  obtain ⟨-, -, -, -, e4, e5⟩ := idx_facts0 t
  show (cfg0.win 2).cut (grid0.coords t) ((dat0 V c).after 2 t) = _
  rw [after0_2]
  funext j
  rw [View.read_apply]
  refine out0_eq_rows (iblk0 V c 0 t) (iblk0 V c 1 t) (V c main_v4) (V c main_arg3) t.val
    (fun p k r hr => iblk0_0_apply V c t p k r hr) (fun k q => iblk0_1_apply V c t k q) _ _ ?_ ?_
  · show win0_2.index t (0 : Fin 2) * 4096 + 1 * (j 0).val = 4096 * t.val + (j 0).val
    rw [e4]; omega
  · show win0_2.index t (1 : Fin 2) * 128 + 1 * (j 1).val = (j 1).val
    rw [e5]; omega

/-- An index of the output array is in point t's block iff each coordinate is in the block's range on its axis. -/
theorem mem_blk0 (t : Fin cfg0.N) (i : S53248x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v5).slice (win0_2.rect t)).set ↔ _
  rw [View.set_slice_whole, Rect.mem_set_unit]
  exact Iff.rfl

/-- Row r of the output is in the block of point r / 4096: the thirteen blocks of 4096 rows tile the 53248 rows. -/
theorem cover0 (i : S53248x128.Idx) :
    ∃ t : Fin cfg0.N, (cfg0.win 2).flush t = true ∧ i ∈ ((cfg0.win 2).blk t).view.set := by
  have hi0 : (i 0).val < 53248 := (i 0).isLt
  have hi1 : (i 1).val < 128 := (i 1).isLt
  have hN : cfg0.N = 13 := N_0
  have hlt : (i 0).val / 4096 < cfg0.N := by rw [hN]; omega
  obtain ⟨-, -, -, -, e4, e5⟩ := idx_facts0 ⟨(i 0).val / 4096, hlt⟩
  refine ⟨⟨(i 0).val / 4096, hlt⟩, flush0_2 _, ?_⟩
  rw [mem_blk0]
  intro a
  match a with
  | ⟨0, _⟩ =>
    show win0_2.index ⟨(i 0).val / 4096, hlt⟩ (0 : Fin 2) * 4096 ≤ (i 0).val ∧ (i 0).val < win0_2.index ⟨(i 0).val / 4096, hlt⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, hlt⟩ (1 : Fin 2) * 128 ≤ (i 1).val ∧ (i 1).val < win0_2.index ⟨(i 0).val / 4096, hlt⟩ (1 : Fin 2) * 128 + 128
    rw [e5]; omega

/-- The first stage's output array after the stage: every row of the padded features against the weights. -/
theorem arr0 (c : Dev nD) :
    (dat0 (F := Ideal) V c).arrAt 2 cfg0.N = Cert.Spec.linOut (V c main_v4) (V c main_arg3) :=
  (dat0 (F := Ideal) V c).arrAt_eq_of_cover 2 (Cert.Spec.linOut (V c main_v4) (V c main_arg3))
    (fun t _ => flushed0_eq V c t) cover0
end

/-! ## The second dense stage -/

section
/-- The stored value at row p, column q of a block: the sum over k of x0[p, k] · x1[k, q]. -/
theorem pay1_apply (x0 : Vec Ideal S4096x128 .f32) (x1 : Vec Ideal S128x128 .f32) (p : Fin 4096) (q : Fin 128) :
    k1_pay1 (F := Ideal) x0 x1 (ix2 p q) = ∑ k : Fin 128, x0 (ix2 p k) * x1 (ix2 k q) := by
  unfold k1_pay1
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_row _ _
    | ⟨1, _⟩ => exact (lhs_contr _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_contr _ _).trans hk
    | ⟨1, _⟩ => exact rhs_col _ _)
  rw [el, er, shapeCast_self]
  rfl

/-- What the body leaves in the output block, at row p and column q: the row of the feature block against the column of the weight block. -/
theorem out1_apply (x0 : Vec Ideal S4096x128 .f32) (x1 : Vec Ideal S128x128 .f32) (p : Fin 4096) (q : Fin 128) :
    out1_2 (F := Ideal) x0 x1 (ix2 p q) = ∑ k : Fin 128, x0 (ix2 p k) * x1 (ix2 k q) := by
  unfold out1_2
  rw [View.canon_unit_zero hz]
  simp only [View.ld_unit_zero (S := S4096x128) hz, View.ld_unit_zero (S := S128x128) hz]
  exact pay1_apply x0 x1 p q

/-- If the feature block holds rows 4096·s … 4096·s + 4095 of xp and the weight block is all of w, the output
    block is the same rows of linOut xp w. -/
theorem out1_eq_rows (x0 : Vec Ideal S4096x128 .f32) (x1 : Vec Ideal S128x128 .f32)
    (xp : FVec Ideal S53248x128 .f32) (w : FVec Ideal S128x128 .f32) (s : Nat)
    (h0 : ∀ (p : Fin 4096) (k : Fin 128) (r : Fin 53248), r.val = 4096 * s + p.val → x0 (ix2 p k) = xp (ix2 r k))
    (h1 : ∀ (k q : Fin 128), x1 (ix2 k q) = w (ix2 k q))
    (y : S4096x128.Idx) (i : S53248x128.Idx) (hi0 : (i 0).val = 4096 * s + (y 0).val) (hi1 : (i 1).val = (y 1).val) :
    out1_2 (F := Ideal) x0 x1 y = Cert.Spec.linOut xp w i := by
  obtain ⟨p, q, rfl⟩ : ∃ (p : Fin 4096) (q : Fin 128), y = ix2 p q := ⟨y 0, y 1, eq_ix2 y⟩
  rw [out1_apply]
  unfold Cert.Spec.linOut
  refine Finset.sum_congr rfl fun k _ => ?_
  rw [h0 p k (i 0) hi0, h1 k q]
  have e : (i 1 : Fin 128) = q := Fin.ext hi1
  rw [e]

/-- The block-index maps over the 13 grid points: the feature and output blocks move down one block of rows per point,
    the weight block stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The feature block at point t holds rows 4096·t … 4096·t + 4095 of the padded features. -/
theorem iblk1_0_apply (c : Dev nD) (t : Fin cfg1.N) (p : Fin 4096) (k : Fin 128) (r : Fin 53248)
    (hr : r.val = 4096 * t.val + p.val) :
    (iblk1 (F := Ideal) V c 0 t : Vec Ideal S4096x128 .f32) (ix2 p k) = (V c main_v47 : S53248x128.Idx → EReal) (ix2 r k) := by
  obtain ⟨e0, e1, -, -, -, -⟩ := idx_facts1 t
  unfold iblk1
  rw [View.read_apply]
  show V c main_v47 _ = V c main_v47 _
  refine congrArg _ ?_
  funext a
  apply Fin.ext
  match a with
  | ⟨0, _⟩ => show win1_0.index t (0 : Fin 2) * 4096 + 1 * p.val = r.val; rw [e0, hr]; omega
  | ⟨1, _⟩ => show win1_0.index t (1 : Fin 2) * 128 + 1 * k.val = k.val; rw [e1]; omega

/-- The weight block is the whole weight matrix at every point. -/
theorem iblk1_1_apply (c : Dev nD) (t : Fin cfg1.N) (k q : Fin 128) :
    (iblk1 (F := Ideal) V c 1 t : Vec Ideal S128x128 .f32) (ix2 k q) = (V c main_arg5 : S128x128.Idx → EReal) (ix2 k q) := by
  obtain ⟨-, -, e2, e3, -, -⟩ := idx_facts1 t
  unfold iblk1
  rw [View.read_apply]
  show V c main_arg5 _ = V c main_arg5 _
  refine congrArg _ ?_
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- What point t writes back is rows 4096·t … 4096·t + 4095 of linOut of the features and weights as the stage finds them. -/
theorem flushed1_eq (c : Dev nD) (t : Fin cfg1.N) :
    (dat1 (F := Ideal) V c).flushed 2 t
      = ((cfg1.win 2).blk t).view.read (Elt Ideal) (Cert.Spec.linOut (V c main_v47) (V c main_arg5)) := by
  obtain ⟨-, -, -, -, e4, e5⟩ := idx_facts1 t
  show (cfg1.win 2).cut (grid1.coords t) ((dat1 V c).after 2 t) = _
  rw [after1_2]
  funext j
  rw [View.read_apply]
  refine out1_eq_rows (iblk1 V c 0 t) (iblk1 V c 1 t) (V c main_v47) (V c main_arg5) t.val
    (fun p k r hr => iblk1_0_apply V c t p k r hr) (fun k q => iblk1_1_apply V c t k q) _ _ ?_ ?_
  · show win1_2.index t (0 : Fin 2) * 4096 + 1 * (j 0).val = 4096 * t.val + (j 0).val
    rw [e4]; omega
  · show win1_2.index t (1 : Fin 2) * 128 + 1 * (j 1).val = (j 1).val
    rw [e5]; omega

/-- An index of the output array is in point t's block iff each coordinate is in the block's range on its axis. -/
theorem mem_blk1 (t : Fin cfg1.N) (i : S53248x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v48).slice (win1_2.rect t)).set ↔ _
  rw [View.set_slice_whole, Rect.mem_set_unit]
  exact Iff.rfl

/-- Row r of the output is in the block of point r / 4096: the thirteen blocks of 4096 rows tile the 53248 rows. -/
theorem cover1 (i : S53248x128.Idx) :
    ∃ t : Fin cfg1.N, (cfg1.win 2).flush t = true ∧ i ∈ ((cfg1.win 2).blk t).view.set := by
  have hi0 : (i 0).val < 53248 := (i 0).isLt
  have hi1 : (i 1).val < 128 := (i 1).isLt
  have hN : cfg1.N = 13 := N_1
  have hlt : (i 0).val / 4096 < cfg1.N := by rw [hN]; omega
  obtain ⟨-, -, -, -, e4, e5⟩ := idx_facts1 ⟨(i 0).val / 4096, hlt⟩
  refine ⟨⟨(i 0).val / 4096, hlt⟩, flush1_2 _, ?_⟩
  rw [mem_blk1]
  intro a
  match a with
  | ⟨0, _⟩ =>
    show win1_2.index ⟨(i 0).val / 4096, hlt⟩ (0 : Fin 2) * 4096 ≤ (i 0).val ∧ (i 0).val < win1_2.index ⟨(i 0).val / 4096, hlt⟩ (0 : Fin 2) * 4096 + 4096
    rw [e4]; show (i 0).val / 4096 * 4096 ≤ (i 0).val ∧ (i 0).val < (i 0).val / 4096 * 4096 + 4096; omega
  | ⟨1, _⟩ =>
    show win1_2.index ⟨(i 0).val / 4096, hlt⟩ (1 : Fin 2) * 128 ≤ (i 1).val ∧ (i 1).val < win1_2.index ⟨(i 0).val / 4096, hlt⟩ (1 : Fin 2) * 128 + 128
    rw [e5]; omega

/-- The second stage's output array after the stage: every row of the padded features against the weights. -/
theorem arr1 (c : Dev nD) :
    (dat1 (F := Ideal) V c).arrAt 2 cfg1.N = Cert.Spec.linOut (V c main_v47) (V c main_arg5) :=
  (dat1 (F := Ideal) V c).arrAt_eq_of_cover 2 (Cert.Spec.linOut (V c main_v47) (V c main_arg5))
    (fun t _ => flushed1_eq V c t) cover1
end

end Cert.KernelIdeal.LinBlocks

end
-- ==== Proof.LinearBridge.lean ====
/-
  The first 50000 rows of the row-by-weight products of the zero-padded feature matrix are the
  reference's dense layer on the unpadded features.

  Row r < 50000 of the padded matrix is row r of the features (the padding only adds rows 50000 … 53247),
  so entry (r, j) of the product, Σ_k xp[r, k] · w[k, j], is Σ_k x[r, k] · w[k, j]; the padding value is never read.
-/
import proofs.«181334_j67791763800740_1_alg».proof.Proof.Spec
import proofs.«181334_j67791763800740_1_alg».proof.Proof.Gen.ReferenceIdeal.Read
import Idealize.ShloMosaic.Lib.KernelVsHost

noncomputable section

namespace Cert.KernelIdeal.LinBridge

open Idealize.ShloMosaic
open Cert.KernelIdeal Cert.KernelIdeal.Gen

/-- Entry (r, k) of the padded features, for a row r < 50000, is entry (r, k) of the features. -/
theorem pad_row_lt (x : FVec Ideal S50000x128 .f32) (z : FVec Ideal S_ .f32) (r : Fin 50000) (k : Fin 128) :
    pad S53248x128 ![0, 0] ![3248, 0] ![0, 0] x z pads_S50000x128_S53248x128_032480_000 h_S_
        (ValueIdx.ix2 (⟨r.val, by omega⟩ : Fin 53248) k)
      = x (ValueIdx.ix2 r k) := by
  refine pad_apply_of_inside (![0, 0]) (![3248, 0]) (![0, 0]) x z pads_S50000x128_S53248x128_032480_000 h_S_ _ _ fun a => ?_
  match a with
  | ⟨0, _⟩ => show r.val = 0 + r.val * (0 + 1); omega
  | ⟨1, _⟩ => show k.val = 0 + k.val * (0 + 1); omega

theorem slice_lin_pad (x : FVec Ideal S50000x128 .f32) (w : FVec Ideal S128x128 .f32) (z : FVec Ideal S_ .f32) :
    extractStridedSlice S50000x128 ![0, 0]
        (Cert.Spec.linOut (pad S53248x128 ![0, 0] ![3248, 0] ![0, 0] x z pads_S50000x128_S53248x128_032480_000 h_S_) w)
        slices_S53248x128_S50000x128_0_0
      = Cert.ReferenceIdeal.Read.val_main_v4 (F := Ideal) x w := by
  funext i
  obtain ⟨r, j, rfl⟩ : ∃ (r : Fin 50000) (j : Fin 128), i = ValueIdx.ix2 r j := ⟨i 0, i 1, ValueIdx.eq_ix2 i⟩
  refine (extractStridedSlice_apply (![0, 0]) _ slices_S53248x128_S50000x128_0_0 (ValueIdx.ix2 r j)
    (ValueIdx.ix2 (⟨r.val, by omega⟩ : Fin 53248) j) fun a => ?_).trans ?_
  · match a with
    | ⟨0, _⟩ => show r.val = 0 + r.val; omega
    | ⟨1, _⟩ => show j.val = 0 + j.val; omega
  · rw [Cert.ReferenceIdeal.Read.val_main_v4_apply]
    unfold Cert.Spec.linOut
    refine Finset.sum_congr rfl fun k _ => ?_
    have hx := pad_row_lt x z r k
    have el : Cert.ReferenceIdeal.Read.lidx_main_v4 (ValueIdx.ix2 r j) k = ValueIdx.ix2 r k :=
      funext fun a => Fin.ext (by match a with | ⟨0, _⟩ => rfl | ⟨1, _⟩ => rfl)
    have er : Cert.ReferenceIdeal.Read.ridx_main_v4 (ValueIdx.ix2 r j) k = ValueIdx.ix2 k j :=
      funext fun a => Fin.ext (by match a with | ⟨0, _⟩ => rfl | ⟨1, _⟩ => rfl)
    rw [el, er]
    exact congrArg (· * w (ValueIdx.ix2 k j)) hx

end Cert.KernelIdeal.LinBridge

end
-- ==== Proof.ClassifierBlocks.lean ====
/-
  The classifier head's region has no grid: it runs its body once, every window's block is its whole array, and the body
  stores once, through the whole output buffer. So the output array after the region is the body's arithmetic applied to
  the five input arrays as the region finds them.
-/
import proofs.«181334_j67791763800740_1_alg».proof.Proof.Gen.KernelIdeal.Frame
import Idealize.ShloMosaic.Lib.Pipeline.Value
import Idealize.ShloMosaic.Lib.Tactic
import Idealize.ShloMosaic.PureOps.Ideal

noncomputable section

open Idealize.ShloMosaic Idealize.ShloMosaic.TcCoe Idealize.SL.Sem
open Idealize.ShloMosaic.Pipeline (Dat)

namespace Cert.KernelIdeal.ClsBlocks

open Cert.KernelIdeal Cert.KernelIdeal.Gen

variable (V : (c : Dev nD) → (b : Ref sig .tc) → Buf (Elt Ideal) ((c : Thread nD τ).loc b))

/-- The zero offsets of a rank-2 rectangle, as the constant function. -/
theorem zero_offsets : (![0, 0] : Fin 2 → Nat) = fun _ => 0 := funext fun a => by fin_cases a <;> rfl

/-- Each input window's block, at the one point, is its whole array: the block index is zero on both axes and the block has the array's sizes. -/
theorem block_features (c : Dev nD) (t : Fin cfg2.N) : (iblk2 (F := Ideal) V c 0 t : Vec Ideal S64x128 .f32) = V c main_v100 := by
  unfold iblk2
  have hz : (fun a => win2_0.index t a * main_v100.ty.shape.size a) = fun _ => 0 := funext fun a => Nat.zero_mul _
  exact Memref.read_access_unit_zero (Elt Ideal) main_v100 hz (fun a => by rw [congrFun hz a]; simp) (V c main_v100)

theorem block_weights1 (c : Dev nD) (t : Fin cfg2.N) : (iblk2 (F := Ideal) V c 1 t : Vec Ideal S128x64 .f32) = V c main_arg7 := by
  unfold iblk2
  have hz : (fun a => win2_1.index t a * main_arg7.ty.shape.size a) = fun _ => 0 := funext fun a => Nat.zero_mul _
  exact Memref.read_access_unit_zero (Elt Ideal) main_arg7 hz (fun a => by rw [congrFun hz a]; simp) (V c main_arg7)

theorem block_bias1 (c : Dev nD) (t : Fin cfg2.N) : (iblk2 (F := Ideal) V c 2 t : Vec Ideal S1x64 .f32) = V c main_v101 := by
  unfold iblk2
  have hz : (fun a => win2_2.index t a * main_v101.ty.shape.size a) = fun _ => 0 := funext fun a => Nat.zero_mul _
  exact Memref.read_access_unit_zero (Elt Ideal) main_v101 hz (fun a => by rw [congrFun hz a]; simp) (V c main_v101)

theorem block_weights2 (c : Dev nD) (t : Fin cfg2.N) : (iblk2 (F := Ideal) V c 3 t : Vec Ideal S64x1 .f32) = V c main_arg9 := by
  unfold iblk2
  have hz : (fun a => win2_3.index t a * main_arg9.ty.shape.size a) = fun _ => 0 := funext fun a => Nat.zero_mul _
  exact Memref.read_access_unit_zero (Elt Ideal) main_arg9 hz (fun a => by rw [congrFun hz a]; simp) (V c main_arg9)

theorem block_bias2 (c : Dev nD) (t : Fin cfg2.N) : (iblk2 (F := Ideal) V c 4 t : Vec Ideal S1x1 .f32) = V c main_v102 := by
  unfold iblk2
  have hz : (fun a => win2_4.index t a * main_v102.ty.shape.size a) = fun _ => 0 := funext fun a => Nat.zero_mul _
  exact Memref.read_access_unit_zero (Elt Ideal) main_v102 hz (fun a => by rw [congrFun hz a]; simp) (V c main_v102)

/-- What the body leaves in the output buffer: its one store goes through the whole buffer and its loads read the whole input
    buffers, so the buffer holds the body's arithmetic of the five input buffers. -/
theorem body_result (x0 : Vec Ideal S64x128 .f32) (x1 : Vec Ideal S128x64 .f32) (x2 : Vec Ideal S1x64 .f32)
    (x3 : Vec Ideal S64x1 .f32) (x4 : Vec Ideal S1x1 .f32) :
    out2_5 (F := Ideal) x0 x1 x2 x3 x4 = k2_pay1 (F := Ideal) x0 x1 x2 x3 x4 := by
  unfold out2_5
  rw [View.canon_unit_zero zero_offsets]
  simp only [View.ld_unit_zero (S := S64x128) zero_offsets, View.ld_unit_zero (S := S128x64) zero_offsets,
    View.ld_unit_zero (S := S1x64) zero_offsets, View.ld_unit_zero (S := S64x1) zero_offsets,
    View.ld_unit_zero (S := S1x1) zero_offsets]

/-- What the one point writes back is the whole output array's worth of the body's arithmetic of the input arrays. -/
theorem written_back (c : Dev nD) (t : Fin cfg2.N) :
    (dat2 (F := Ideal) V c).flushed 5 t
      = ((cfg2.win 5).blk t).view.read (Elt Ideal)
          (k2_pay1 (F := Ideal) (V c main_v100) (V c main_arg7) (V c main_v101) (V c main_arg9) (V c main_v102)) := by
  show (cfg2.win 5).cut (grid2.coords t) ((dat2 (F := Ideal) V c).after 5 t) = _
  rw [after2_5, body_result, block_features, block_weights1, block_bias1, block_weights2, block_bias2]
  have hz : (fun a => win2_5.index t a * main_v103.ty.shape.size a) = fun _ => 0 := funext fun a => Nat.zero_mul _
  exact (Memref.read_access_unit_zero (Elt Ideal) main_v103 hz (fun a => by rw [congrFun hz a]; simp) _).symm

/-- The output array after the region: the body's arithmetic of the five input arrays as the region finds them. -/
theorem arr2 (c : Dev nD) :
    (dat2 (F := Ideal) V c).arrAt 5 cfg2.N
      = k2_pay1 (F := Ideal) (V c main_v100) (V c main_arg7) (V c main_v101) (V c main_arg9) (V c main_v102) :=
  (dat2 (F := Ideal) V c).arrAt_eq_of_cover 5 _ (fun t _ => written_back V c t) fun i =>
    ⟨t2_0, flush2_5 t2_0, by
      show i ∈ ((View.whole main_v103).slice (win2_5.rect t2_0)).set
      rw [View.set_slice_whole, Rect.mem_set_unit]
      intro a
      have h0 : (i 0 : Nat) < 64 := (i 0).isLt
      have h1 : (i 1 : Nat) < 1 := (i 1).isLt
      match a with
      | ⟨0, _⟩ => show 0 * 64 ≤ (i 0 : Nat) ∧ (i 0 : Nat) < 0 * 64 + 64; omega
      | ⟨1, _⟩ => show 0 * 1 ≤ (i 1 : Nat) ∧ (i 1 : Nat) < 0 * 1 + 1; omega⟩

end Cert.KernelIdeal.ClsBlocks

end
-- ==== Proof.ClassifierMath.lean ====
/-
  The classifier head's arithmetic on the extended reals.

  Both programs compute, for a 64×128 matrix p, weights w1 (128×64), w2 (64×1) and biases b1 (64), b2 (1),

      sigmoid( relu(p · w1 + b1) · w2 + b2 ).

  The kernel rounds its matrix operands to bf16 (the identity on the extended reals), accumulates each product into a
  zero matrix, adds the bias as a [1, n] row broadcast over the rows, takes the maximum with a zero splat and applies
  the logistic function. The reference takes the two products as dot_generals, broadcasts each bias [n] → [1, n] →
  [64, n], takes the maximum with a broadcast scalar 0 and spells the sigmoid as 1 / (1 + exp(−z)).

  The proof goes entry by entry: (1) the hidden layer at (r, c): the same sum over the contraction index, the same bias
  entry b1[c], the same zero; (2) the logit at (r, 0), over ANY hidden layer: the same sum and the bias entry b2[0];
  (3) the logistic function is 1 / (1 + exp(−z)) once the literal 0x3F800000 is read as 1; then the three are chained.
-/
import proofs.«181334_j67791763800740_1_alg».proof.Proof.Spec
import proofs.«181334_j67791763800740_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.ClsMath

open Idealize.ShloMosaic
open Cert.KernelIdeal Cert.KernelIdeal.Gen
open ValueIdx

/-! ## Constants and the two contractions -/

/-- The f32 pattern 0x3F800000 (sign 0, biased exponent 127, mantissa 0) denotes 1. -/
theorem ofBits_one_f32 : Ideal.ofBits .f32 0x3F800000#32 = 1 := by
  simp [Ideal.ofBits, Ideal.ieee, -EReal.coe_mul]; norm_num

/-- The two programs' [64,128] × [128,64] contraction is one and the same: contract axis 1 against axis 0. -/
theorem dot1_eq : Cert.KernelIdeal.dot_S64x128_S128x64_S64x64_1_0_0_1_n_n
    = Cert.ReferenceIdeal.dot_S64x128_S128x64_S64x64_1_0_0_1_n_n := rfl

/-- The two programs' [64,64] × [64,1] contraction is one and the same. -/
theorem dot2_eq : Cert.KernelIdeal.dot_S64x64_S64x1_S64x1_1_0_0_1_n_n
    = Cert.ReferenceIdeal.dot_S64x64_S64x1_S64x1_1_0_0_1_n_n := rfl

/-! ## The bias forms at an entry -/

/-- The first bias as the kernel forms it — [64] cast to [1, 64], then broadcast over 64 rows — reads b1[c] at (r, c). -/
theorem biasK1 (b1 : FVec Ideal S64 .f32) (r c : Fin 64) :
    broadcastTo S64x64 (shapeCast S1x64 (shapeCast S1x64 b1 shapeCasts_S64_S1x64) shapeCasts_S1x64_S1x64)
      broadcasts_S1x64_S64x64 (ix2 r c) = b1 (ix1 c) := by
  rw [broadcastTo_1b_ab_apply]
  rw [shapeCast_apply _ shapeCasts_S1x64_S1x64 (ix2 (0 : Fin 1) c) (ix2 (0 : Fin 1) c) rfl]
  exact shapeCast_a_1a_apply b1 shapeCasts_S64_S1x64 0 c

/-- The first bias as the reference forms it — [64] → [1, 64] → [64, 64] — reads b1[c] at (r, c). -/
theorem biasR1 (b1 : FVec Ideal S64 .f32) (r c : Fin 64) :
    broadcastInDim Cert.ReferenceIdeal.S64x64 ![0, 1] Cert.ReferenceIdeal.Gen.bcast_S1x64_S64x64_0_1
      (broadcastInDim Cert.ReferenceIdeal.S1x64 ![1] Cert.ReferenceIdeal.Gen.bcast_S64_S1x64_1 b1) (ix2 r c) = b1 (ix1 c) := by
  rw [broadcastInDim_apply _ Cert.ReferenceIdeal.Gen.bcast_S1x64_S64x64_0_1 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])]
  exact broadcastInDim_apply _ Cert.ReferenceIdeal.Gen.bcast_S64_S1x64_1 b1 (ix2 (0 : Fin 1) c) (ix1 c) (fun a => match a with
    | ⟨0, _⟩ => by show c.val = if (64 : Nat) = 1 then 0 else c.val; rw [if_neg (by decide)])

/-- The second bias as the kernel forms it — [1] cast to [1, 1], then broadcast over 64 rows — reads b2[0] everywhere. -/
theorem biasK2 (b2 : FVec Ideal S1 .f32) (r : Fin 64) (c : Fin 1) :
    broadcastTo S64x1 (shapeCast S1x1 (shapeCast S1x1 b2 shapeCasts_S1_S1x1) shapeCasts_S1x1_S1x1)
      broadcasts_S1x1_S64x1 (ix2 r c) = b2 (ix1 0) := by
  rw [broadcastTo_1b_ab_apply]
  rw [shapeCast_apply _ shapeCasts_S1x1_S1x1 (ix2 (0 : Fin 1) c) (ix2 (0 : Fin 1) c) rfl]
  rw [shapeCast_a_1a_apply b2 shapeCasts_S1_S1x1 0 c]
  exact congrArg b2 (congrArg ix1 (Subsingleton.elim _ _))

/-- The second bias as the reference forms it — [1] → [1, 1] → [64, 1] — reads b2[0] everywhere. -/
theorem biasR2 (b2 : FVec Ideal S1 .f32) (r : Fin 64) (c : Fin 1) :
    broadcastInDim Cert.ReferenceIdeal.S64x1 ![0, 1] Cert.ReferenceIdeal.Gen.bcast_S1x1_S64x1_0_1
      (broadcastInDim Cert.ReferenceIdeal.S1x1 ![1] Cert.ReferenceIdeal.Gen.bcast_S1_S1x1_1 b2) (ix2 r c) = b2 (ix1 0) := by
  rw [broadcastInDim_apply _ Cert.ReferenceIdeal.Gen.bcast_S1x1_S64x1_0_1 _ (ix2 r c) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else c.val; rw [if_pos rfl])]
  exact broadcastInDim_apply _ Cert.ReferenceIdeal.Gen.bcast_S1_S1x1_1 b2 (ix2 (0 : Fin 1) (0 : Fin 1)) (ix1 0) (fun a => match a with
    | ⟨0, _⟩ => by show 0 = if (1 : Nat) = 1 then 0 else 0; rw [if_pos rfl])

/-! ## The hidden layer relu(p · w1 + b1) -/

/-- The hidden layer in the kernel's operations. -/
def hidK (p : FVec Ideal S64x128 .f32) (w1 : FVec Ideal S128x64 .f32) (b1 : FVec Ideal S64 .f32) : FVec Ideal S64x64 .f32 :=
  maximumf
    (addf
      (matmul dot_S64x128_S128x64_S64x64_1_0_0_1_n_n none
        (truncf FTy.bf16 (shapeCast S64x128 p shapeCasts_S64x128_S64x128) bitsLt_bf16_f32)
        (truncf FTy.bf16 w1 bitsLt_bf16_f32) (constant S64x64 FTy.f32 0x00000000#32))
      (broadcastTo S64x64 (shapeCast S1x64 (shapeCast S1x64 b1 shapeCasts_S64_S1x64) shapeCasts_S1x64_S1x64)
        broadcasts_S1x64_S64x64))
    (broadcast S64x64 (FloatOps.ofBits FTy.f32 0x00000000#32))

/-- The hidden layer in the reference's operations. -/
def hidR (p : FVec Ideal S64x128 .f32) (w1 : FVec Ideal S128x64 .f32) (b1 : FVec Ideal S64 .f32) : FVec Ideal S64x64 .f32 :=
  maximumf
    (addf (Host.dotGeneral Cert.ReferenceIdeal.dot_S64x128_S128x64_S64x64_1_0_0_1_n_n none p w1)
      (broadcastInDim Cert.ReferenceIdeal.S64x64 ![0, 1] Cert.ReferenceIdeal.Gen.bcast_S1x64_S64x64_0_1
        (broadcastInDim Cert.ReferenceIdeal.S1x64 ![1] Cert.ReferenceIdeal.Gen.bcast_S64_S1x64_1 b1)))
    (broadcastInDim Cert.ReferenceIdeal.S64x64 ![] Cert.ReferenceIdeal.Gen.bcast_S_S64x64
      (constant Cert.ReferenceIdeal.S_ FTy.f32 0x00000000#32))

/-- Entry (r, c) of either hidden layer is max(Σ_k p[r, k] · w1[k, c] + b1[c], 0): the two agree. -/
theorem hid_eq (p : FVec Ideal S64x128 .f32) (w1 : FVec Ideal S128x64 .f32) (b1 : FVec Ideal S64 .f32) :
    hidK p w1 b1 = hidR p w1 b1 := by
  funext j
  obtain ⟨r, c, rfl⟩ : ∃ (r c : Fin 64), j = ix2 r c := ⟨j 0, j 1, eq_ix2 j⟩
  unfold hidK hidR
  show max (_ + _) _ = max (_ + _) _
  rw [biasK1, biasR1]
  simp only [matmul, Host.dotGeneral]
  rw [Ideal.matmul_constant_zero_apply, Ideal.dotGeneral_apply, dot1_eq]
  -- the rounding to bf16 and the cast to the same shape change no entry
  have hp : ∀ q : S64x128.Idx, truncf FTy.bf16 (shapeCast S64x128 p shapeCasts_S64x128_S64x128) bitsLt_bf16_f32 q = p q :=
    fun q => shapeCast_apply p shapeCasts_S64x128_S64x128 q q rfl
  have hw : ∀ q : S128x64.Idx, truncf FTy.bf16 w1 bitsLt_bf16_f32 q = w1 q := fun _ => rfl
  simp only [hp, hw]
  rfl

/-! ## The logit h · w2 + b2, over any hidden layer h -/

/-- The logit in the kernel's operations. -/
def logitK (h : FVec Ideal S64x64 .f32) (w2 : FVec Ideal S64x1 .f32) (b2 : FVec Ideal S1 .f32) : FVec Ideal S64x1 .f32 :=
  addf
    (matmul dot_S64x64_S64x1_S64x1_1_0_0_1_n_n none
      (truncf FTy.bf16 h bitsLt_bf16_f32)
      (truncf FTy.bf16 w2 bitsLt_bf16_f32) (constant S64x1 FTy.f32 0x00000000#32))
    (broadcastTo S64x1 (shapeCast S1x1 (shapeCast S1x1 b2 shapeCasts_S1_S1x1) shapeCasts_S1x1_S1x1)
      broadcasts_S1x1_S64x1)

/-- The logit in the reference's operations. -/
def logitR (h : FVec Ideal S64x64 .f32) (w2 : FVec Ideal S64x1 .f32) (b2 : FVec Ideal S1 .f32) : FVec Ideal S64x1 .f32 :=
  addf
    (Host.dotGeneral Cert.ReferenceIdeal.dot_S64x64_S64x1_S64x1_1_0_0_1_n_n none h w2)
    (broadcastInDim Cert.ReferenceIdeal.S64x1 ![0, 1] Cert.ReferenceIdeal.Gen.bcast_S1x1_S64x1_0_1
      (broadcastInDim Cert.ReferenceIdeal.S1x1 ![1] Cert.ReferenceIdeal.Gen.bcast_S1_S1x1_1 b2))

/-- Entry (r, 0) of either logit is Σ_k h[r, k] · w2[k, 0] + b2[0]: the two agree. -/
theorem logit_eq (h : FVec Ideal S64x64 .f32) (w2 : FVec Ideal S64x1 .f32) (b2 : FVec Ideal S1 .f32) :
    logitK h w2 b2 = logitR h w2 b2 := by
  funext j
  obtain ⟨r, c, rfl⟩ : ∃ (r : Fin 64) (c : Fin 1), j = ix2 r c := ⟨j 0, j 1, eq_ix2 j⟩
  unfold logitK logitR
  show _ + _ = _ + _
  rw [biasK2, biasR2]
  simp only [matmul, Host.dotGeneral]
  rw [Ideal.matmul_constant_zero_apply, Ideal.dotGeneral_apply, dot2_eq]
  rfl

/-! ## The sigmoid -/

/-- The logistic function is 1 / (1 + exp(−z)), the ones being the broadcast scalar 0x3F800000. -/
theorem sigmoid_eq (z : FVec Ideal S64x1 .f32) :
    logistic z =
      Host.divf (broadcastInDim Cert.ReferenceIdeal.S64x1 ![] Cert.ReferenceIdeal.Gen.bcast_S_S64x1 (constant Cert.ReferenceIdeal.S_ .f32 0x3F800000#32))
        (addf (broadcastInDim Cert.ReferenceIdeal.S64x1 ![] Cert.ReferenceIdeal.Gen.bcast_S_S64x1 (constant Cert.ReferenceIdeal.S_ .f32 0x3F800000#32))
          (Host.exp (Host.negf z))) := by
  funext j
  show Ideal.div 1 (1 + Ideal.exp (-(z j))) = Ideal.div (Ideal.ofBits .f32 0x3F800000#32) (Ideal.ofBits .f32 0x3F800000#32 + Ideal.exp (-(z j)))
  rw [ofBits_one_f32]

/-! ## The head -/

/-- The kernel's classifier payload, fed the biases as [1, 64] and [1, 1] rows, is the reference's classifier head. -/
theorem cls_eq (p : FVec Ideal S64x128 .f32) (w1 : FVec Ideal S128x64 .f32) (b1 : FVec Ideal S64 .f32)
    (w2 : FVec Ideal S64x1 .f32) (b2 : FVec Ideal S1 .f32) :
    k2_pay1 (F := Ideal) p w1 (shapeCast S1x64 b1 shapeCasts_S64_S1x64) w2 (shapeCast S1x1 b2 shapeCasts_S1_S1x1)
      = Cert.Spec.refCls p w1 b1 w2 b2 := by
  show logistic (logitK (hidK p w1 b1) w2 b2) = _
  rw [sigmoid_eq, hid_eq, logit_eq]
  rfl

end Cert.KernelIdeal.ClsMath

end
-- ==== Proof.HostChain.lean ====
/-
  The kernel program's result buffer, read back through its three regions and the host operations between them.

  The contents of every buffer at each segment boundary are a fold from the launch memory. Walking that fold:
  the node features are zero-padded to 53248 rows; region 0 leaves every padded row against the first weight matrix,
  and the first 50000 rows of that are the reference's dense layer; the aggregate over the edges (self-loops appended,
  negative endpoints wrapped, weights 1 / sqrt(deg src · deg dst) from the in-degrees) and the bias are the same host
  operations in both programs, stage by stage; ReLU, padding, region 1 and the second aggregate repeat the pattern;
  the per-graph mean is the same host operations again; and the classifier region's one block is the reference's
  head. Each stage of the kernel program's chain is identified with the reference's stage of the same arguments, so
  that at the end the result buffer holds the reference's last stage.
-/
import proofs.«181334_j67791763800740_1_alg».proof.Proof.Gen.KernelIdeal.Frame
import proofs.«181334_j67791763800740_1_alg».proof.Proof.Gen.ReferenceIdeal.Read
import proofs.«181334_j67791763800740_1_alg».proof.Proof.Spec
import proofs.«181334_j67791763800740_1_alg».proof.Proof.LinearBlocks
import proofs.«181334_j67791763800740_1_alg».proof.Proof.LinearBridge
import proofs.«181334_j67791763800740_1_alg».proof.Proof.ClassifierBlocks
import proofs.«181334_j67791763800740_1_alg».proof.Proof.ClassifierMath
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Argument 0 as launched, at its tensor type. -/
abbrev A0 (c : Dev nD) : (⟨S50000x128, .f32⟩ : BufTy).Contents (Elt Ideal) := m ((c : Thread nD τ).loc main_arg0)
/-- Argument 1 as launched, at its tensor type. -/
abbrev A1 (c : Dev nD) : (⟨S2x800000, .i32⟩ : BufTy).Contents (Elt Ideal) := m ((c : Thread nD τ).loc main_arg1)
/-- Argument 2 as launched, at its tensor type. -/
abbrev A2 (c : Dev nD) : (⟨S50000, .i32⟩ : BufTy).Contents (Elt Ideal) := m ((c : Thread nD τ).loc main_arg2)
/-- Argument 3 as launched, at its tensor type. -/
abbrev A3 (c : Dev nD) : (⟨S128x128, .f32⟩ : BufTy).Contents (Elt Ideal) := m ((c : Thread nD τ).loc main_arg3)
/-- Argument 4 as launched, at its tensor type. -/
abbrev A4 (c : Dev nD) : (⟨S128, .f32⟩ : BufTy).Contents (Elt Ideal) := m ((c : Thread nD τ).loc main_arg4)
/-- Argument 5 as launched, at its tensor type. -/
abbrev A5 (c : Dev nD) : (⟨S128x128, .f32⟩ : BufTy).Contents (Elt Ideal) := m ((c : Thread nD τ).loc main_arg5)
/-- Argument 6 as launched, at its tensor type. -/
abbrev A6 (c : Dev nD) : (⟨S128, .f32⟩ : BufTy).Contents (Elt Ideal) := m ((c : Thread nD τ).loc main_arg6)
/-- Argument 7 as launched, at its tensor type. -/
abbrev A7 (c : Dev nD) : (⟨S128x64, .f32⟩ : BufTy).Contents (Elt Ideal) := m ((c : Thread nD τ).loc main_arg7)
/-- Argument 8 as launched, at its tensor type. -/
abbrev A8 (c : Dev nD) : (⟨S64, .f32⟩ : BufTy).Contents (Elt Ideal) := m ((c : Thread nD τ).loc main_arg8)
/-- Argument 9 as launched, at its tensor type. -/
abbrev A9 (c : Dev nD) : (⟨S64x1, .f32⟩ : BufTy).Contents (Elt Ideal) := m ((c : Thread nD τ).loc main_arg9)
/-- Argument 10 as launched, at its tensor type. -/
abbrev A10 (c : Dev nD) : (⟨S1, .f32⟩ : BufTy).Contents (Elt Ideal) := m ((c : Thread nD τ).loc main_arg10)

/-- The pad value: the integer 0 converted. -/
abbrev padZ : (⟨S_, .f32⟩ : BufTy).Contents (Elt Ideal) := sitofp (F := Ideal) .f32 (constantI S_ 32 0#32)

/-- The source endpoints of the edges: row 0 of the edge list. -/
abbrev srcOf (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000
/-- The target endpoints of the edges: row 1 of the edge list. -/
abbrev dstOf (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-! ## Region 0's entry: the host operations before it -/

theorem W2_v4 (c : Dev nD) :
    W2 m ρ c (Proc.devRef .tc main_v4)
      = pad S53248x128 ![0, 0] ![3248, 0] ![0, 0] (A0 m c) padZ pads_S50000x128_S53248x128_032480_000 h_S_ := by
  dsimp only [W2, W1, W0, hostOps0, hostOps0_1]
  after_results
  rfl
theorem W2_v1 (c : Dev nD) : W2 m ρ c (Proc.devRef .tc main_v1) = srcOf (A1 m c) := by
  dsimp only [W2, W1, W0, hostOps0, hostOps0_1]
  after_results
  rfl
theorem W2_v3 (c : Dev nD) : W2 m ρ c (Proc.devRef .tc main_v3) = dstOf (A1 m c) := by
  dsimp only [W2, W1, W0, hostOps0, hostOps0_1]
  after_results
  rfl
theorem W2_arg2 (c : Dev nD) : W2 m ρ c (Proc.devRef .tc main_arg2) = A2 m c := by
  dsimp only [W2, W1, W0, hostOps0, hostOps0_1]
  after_results
theorem W2_arg3 (c : Dev nD) : W2 m ρ c (Proc.devRef .tc main_arg3) = A3 m c := by
  dsimp only [W2, W1, W0, hostOps0, hostOps0_1]
  after_results
theorem W2_arg4 (c : Dev nD) : W2 m ρ c (Proc.devRef .tc main_arg4) = A4 m c := by
  dsimp only [W2, W1, W0, hostOps0, hostOps0_1]
  after_results
theorem W2_arg5 (c : Dev nD) : W2 m ρ c (Proc.devRef .tc main_arg5) = A5 m c := by
  dsimp only [W2, W1, W0, hostOps0, hostOps0_1]
  after_results
theorem W2_arg6 (c : Dev nD) : W2 m ρ c (Proc.devRef .tc main_arg6) = A6 m c := by
  dsimp only [W2, W1, W0, hostOps0, hostOps0_1]
  after_results
theorem W2_arg7 (c : Dev nD) : W2 m ρ c (Proc.devRef .tc main_arg7) = A7 m c := by
  dsimp only [W2, W1, W0, hostOps0, hostOps0_1]
  after_results
theorem W2_arg8 (c : Dev nD) : W2 m ρ c (Proc.devRef .tc main_arg8) = A8 m c := by
  dsimp only [W2, W1, W0, hostOps0, hostOps0_1]
  after_results
theorem W2_arg9 (c : Dev nD) : W2 m ρ c (Proc.devRef .tc main_arg9) = A9 m c := by
  dsimp only [W2, W1, W0, hostOps0, hostOps0_1]
  after_results
theorem W2_arg10 (c : Dev nD) : W2 m ρ c (Proc.devRef .tc main_arg10) = A10 m c := by
  dsimp only [W2, W1, W0, hostOps0, hostOps0_1]
  after_results

/-! ## Region 0's exit: its output array is every padded row against the first weight matrix; every other buffer is as entered -/

theorem W3_v5 (c : Dev nD) :
    W3 m ρ c (Proc.devRef .tc main_v5)
      = Cert.Spec.linOut (pad S53248x128 ![0, 0] ![3248, 0] ![0, 0] (A0 m c) padZ pads_S50000x128_S53248x128_032480_000 h_S_) (A3 m c) := by
  refine (W3_arr m ρ c 2).trans ?_
  rw [Cert.KernelIdeal.LinBlocks.arr0 (V2 m ρ) c]
  show Cert.Spec.linOut (W2 m ρ c (Proc.devRef .tc main_v4)) (W2 m ρ c (Proc.devRef .tc main_arg3)) = _
  rw [W2_v4, W2_arg3]
theorem W3_v1 (c : Dev nD) : W3 m ρ c (Proc.devRef .tc main_v1) = srcOf (A1 m c) :=
  (W3_of_ne m ρ c main_v1 (by decide)).trans (W2_v1 m ρ c)
theorem W3_v3 (c : Dev nD) : W3 m ρ c (Proc.devRef .tc main_v3) = dstOf (A1 m c) :=
  (W3_of_ne m ρ c main_v3 (by decide)).trans (W2_v3 m ρ c)
theorem W3_arg2 (c : Dev nD) : W3 m ρ c (Proc.devRef .tc main_arg2) = A2 m c :=
  (W3_of_ne m ρ c main_arg2 (by decide)).trans (W2_arg2 m ρ c)
theorem W3_arg4 (c : Dev nD) : W3 m ρ c (Proc.devRef .tc main_arg4) = A4 m c :=
  (W3_of_ne m ρ c main_arg4 (by decide)).trans (W2_arg4 m ρ c)
theorem W3_arg5 (c : Dev nD) : W3 m ρ c (Proc.devRef .tc main_arg5) = A5 m c :=
  (W3_of_ne m ρ c main_arg5 (by decide)).trans (W2_arg5 m ρ c)
theorem W3_arg6 (c : Dev nD) : W3 m ρ c (Proc.devRef .tc main_arg6) = A6 m c :=
  (W3_of_ne m ρ c main_arg6 (by decide)).trans (W2_arg6 m ρ c)
theorem W3_arg7 (c : Dev nD) : W3 m ρ c (Proc.devRef .tc main_arg7) = A7 m c :=
  (W3_of_ne m ρ c main_arg7 (by decide)).trans (W2_arg7 m ρ c)
theorem W3_arg8 (c : Dev nD) : W3 m ρ c (Proc.devRef .tc main_arg8) = A8 m c :=
  (W3_of_ne m ρ c main_arg8 (by decide)).trans (W2_arg8 m ρ c)
theorem W3_arg9 (c : Dev nD) : W3 m ρ c (Proc.devRef .tc main_arg9) = A9 m c :=
  (W3_of_ne m ρ c main_arg9 (by decide)).trans (W2_arg9 m ρ c)
theorem W3_arg10 (c : Dev nD) : W3 m ρ c (Proc.devRef .tc main_arg10) = A10 m c :=
  (W3_of_ne m ρ c main_arg10 (by decide)).trans (W2_arg10 m ρ c)

/-! ## The graph-convolution aggregate, stage by stage: the kernel program's host operations are the reference's -/

/-- Source endpoints followed by the self-loops. -/
theorem src_loops (e : (⟨S2x800000, .i32⟩ : BufTy).Contents (Elt Ideal)) :
    concatenate S850000 0 [⟨S800000, srcOf e⟩, ⟨S50000, iotaInDim S50000 32 0⟩] concatenates_S800000_S50000_S850000_d0
      = Cert.ReferenceIdeal.Read.val_main_v6 (F := Ideal) e := rfl
/-- Target endpoints followed by the self-loops. -/
theorem dst_loops (e : (⟨S2x800000, .i32⟩ : BufTy).Contents (Elt Ideal)) :
    concatenate S850000 0 [⟨S800000, dstOf e⟩, ⟨S50000, iotaInDim S50000 32 0⟩] concatenates_S800000_S50000_S850000_d0
      = Cert.ReferenceIdeal.Read.val_main_v7 (F := Ideal) e := rfl
/-- The source endpoints as gather indices (a negative index wrapped by the node count). -/
theorem src_index (e : (⟨S2x800000, .i32⟩ : BufTy).Contents (Elt Ideal)) :
    broadcastInDim S850000x1 ![0] bcast_S850000_S850000x1_0
      (select (cmpi CmpIPredicate.slt (Cert.ReferenceIdeal.Read.val_main_v6 (F := Ideal) e) (broadcastInDim S850000 ![] bcast_S_S850000 (constantI S_ 32 0#32)))
        (addi (Cert.ReferenceIdeal.Read.val_main_v6 (F := Ideal) e) (broadcastInDim S850000 ![] bcast_S_S850000 (constantI S_ 32 50000#32)))
        (Cert.ReferenceIdeal.Read.val_main_v6 (F := Ideal) e))
      = Cert.ReferenceIdeal.Read.val_main_v18 (F := Ideal) e := rfl
/-- The target endpoints as gather indices. -/
theorem dst_index (e : (⟨S2x800000, .i32⟩ : BufTy).Contents (Elt Ideal)) :
    broadcastInDim S850000x1 ![0] bcast_S850000_S850000x1_0
      (select (cmpi CmpIPredicate.slt (Cert.ReferenceIdeal.Read.val_main_v7 (F := Ideal) e) (broadcastInDim S850000 ![] bcast_S_S850000 (constantI S_ 32 0#32)))
        (addi (Cert.ReferenceIdeal.Read.val_main_v7 (F := Ideal) e) (broadcastInDim S850000 ![] bcast_S_S850000 (constantI S_ 32 50000#32)))
        (Cert.ReferenceIdeal.Read.val_main_v7 (F := Ideal) e))
      = Cert.ReferenceIdeal.Read.val_main_v25 (F := Ideal) e := rfl
/-- The target endpoints as scatter indices. -/
theorem dst_column (e : (⟨S2x800000, .i32⟩ : BufTy).Contents (Elt Ideal)) :
    broadcastInDim S850000x1 ![0] bcast_S850000_S850000x1_0 (Cert.ReferenceIdeal.Read.val_main_v7 (F := Ideal) e)
      = Cert.ReferenceIdeal.Read.val_main_v10 (F := Ideal) e := rfl
/-- The inverse square root of the in-degree (self-loop included). -/
theorem inv_sqrt_degree (e : (⟨S2x800000, .i32⟩ : BufTy).Contents (Elt Ideal)) :
    Host.rsqrt (Host.scatterAdd scatter_S50000_S850000x1_S850000_n_0_0_1
        (broadcastInDim S50000 ![] bcast_S_S50000 (constant (F := Ideal) S_ FTy.f32 0#32))
        (Cert.ReferenceIdeal.Read.val_main_v10 (F := Ideal) e)
        (broadcastInDim S850000 ![] bcast_S_S850000 (constant (F := Ideal) S_ FTy.f32 1065353216#32)))
      = Cert.ReferenceIdeal.Read.val_main_v12 (F := Ideal) e := rfl
/-- The edge weights 1 / sqrt(deg src · deg dst), one per edge and self-loop, spread along the feature axis. -/
theorem edge_weights (e : (⟨S2x800000, .i32⟩ : BufTy).Contents (Elt Ideal)) :
    (broadcastInDim S850000x128 ![0, 1] bcast_S850000x1_S850000x128_0_1
      (broadcastInDim S850000x1 ![0] bcast_S850000_S850000x1_0
        (mulf (F := Ideal) (φ := .f32) (Host.gather gather_S50000_S850000x1_S850000_n_0_n_n_0_1_1 (Cert.ReferenceIdeal.Read.val_main_v12 (F := Ideal) e) (Cert.ReferenceIdeal.Read.val_main_v18 (F := Ideal) e))
          (Host.gather gather_S50000_S850000x1_S850000_n_0_n_n_0_1_1 (Cert.ReferenceIdeal.Read.val_main_v12 (F := Ideal) e) (Cert.ReferenceIdeal.Read.val_main_v25 (F := Ideal) e)))) : (⟨S850000x128, .f32⟩ : BufTy).Contents (Elt Ideal))
      = Cert.ReferenceIdeal.Read.val_main_v36 (F := Ideal) e := rfl

/-- One aggregate: gather the dense layer's rows at the source endpoints, weight them, add them up at the target
    endpoints, add the bias. Stated for the FIRST layer's dense output. -/
theorem layer1_aggregate (x : (⟨S50000x128, .f32⟩ : BufTy).Contents (Elt Ideal)) (e : (⟨S2x800000, .i32⟩ : BufTy).Contents (Elt Ideal)) (w : (⟨S128x128, .f32⟩ : BufTy).Contents (Elt Ideal)) (b : (⟨S128, .f32⟩ : BufTy).Contents (Elt Ideal)) :
    (addf (F := Ideal) (φ := .f32)
      (Host.scatterAdd scatter_S50000x128_S850000x1_S850000x128_1_0_0_1
        (broadcastInDim S50000x128 ![] bcast_S_S50000x128 (constant (F := Ideal) S_ FTy.f32 0#32))
        (Cert.ReferenceIdeal.Read.val_main_v10 (F := Ideal) e)
        (mulf (F := Ideal) (φ := .f32) (Host.gather gather_S50000x128_S850000x1_S850000x128_1_0_n_n_0_1_1128 (Cert.ReferenceIdeal.Read.val_main_v4 (F := Ideal) x w) (Cert.ReferenceIdeal.Read.val_main_v18 (F := Ideal) e))
          (Cert.ReferenceIdeal.Read.val_main_v36 (F := Ideal) e)))
      (broadcastInDim S50000x128 ![0, 1] bcast_S1x128_S50000x128_0_1 (broadcastInDim S1x128 ![1] bcast_S128_S1x128_1 b))
        : (⟨S50000x128, .f32⟩ : BufTy).Contents (Elt Ideal))
      = Cert.ReferenceIdeal.Read.val_main_v43 (F := Ideal) x e w b := rfl
/-- The ReLU between the layers. -/
theorem layer1_relu (x : (⟨S50000x128, .f32⟩ : BufTy).Contents (Elt Ideal)) (e : (⟨S2x800000, .i32⟩ : BufTy).Contents (Elt Ideal)) (w : (⟨S128x128, .f32⟩ : BufTy).Contents (Elt Ideal)) (b : (⟨S128, .f32⟩ : BufTy).Contents (Elt Ideal)) :
    (maximumf (F := Ideal) (φ := .f32) (Cert.ReferenceIdeal.Read.val_main_v43 (F := Ideal) x e w b)
      (broadcastInDim S50000x128 ![] bcast_S_S50000x128 (constant (F := Ideal) S_ FTy.f32 0#32))
        : (⟨S50000x128, .f32⟩ : BufTy).Contents (Elt Ideal))
      = Cert.ReferenceIdeal.Read.val_main_v44 (F := Ideal) x e w b := rfl

/-- The same aggregate for the SECOND layer: its dense input is the first layer's ReLU'd output against the second
    weight matrix. -/
theorem layer2_aggregate (x : (⟨S50000x128, .f32⟩ : BufTy).Contents (Elt Ideal)) (e : (⟨S2x800000, .i32⟩ : BufTy).Contents (Elt Ideal)) (w : (⟨S128x128, .f32⟩ : BufTy).Contents (Elt Ideal)) (b : (⟨S128, .f32⟩ : BufTy).Contents (Elt Ideal)) (w' : (⟨S128x128, .f32⟩ : BufTy).Contents (Elt Ideal))
    (b' : (⟨S128, .f32⟩ : BufTy).Contents (Elt Ideal)) :
    (addf (F := Ideal) (φ := .f32)
      (Host.scatterAdd scatter_S50000x128_S850000x1_S850000x128_1_0_0_1
        (broadcastInDim S50000x128 ![] bcast_S_S50000x128 (constant (F := Ideal) S_ FTy.f32 0#32))
        (Cert.ReferenceIdeal.Read.val_main_v10 (F := Ideal) e)
        (mulf (F := Ideal) (φ := .f32) (Host.gather gather_S50000x128_S850000x1_S850000x128_1_0_n_n_0_1_1128
            (Cert.ReferenceIdeal.Read.val_main_v4 (F := Ideal) (Cert.ReferenceIdeal.Read.val_main_v44 (F := Ideal) x e w b) w') (Cert.ReferenceIdeal.Read.val_main_v18 (F := Ideal) e))
          (Cert.ReferenceIdeal.Read.val_main_v36 (F := Ideal) e)))
      (broadcastInDim S50000x128 ![0, 1] bcast_S1x128_S50000x128_0_1 (broadcastInDim S1x128 ![1] bcast_S128_S1x128_1 b'))
        : (⟨S50000x128, .f32⟩ : BufTy).Contents (Elt Ideal))
      = Cert.ReferenceIdeal.Read.val_main_v84 (F := Ideal) x e w b w' b' := rfl
/-- The mean over each graph's nodes: the per-graph sums over the per-graph counts (at least one). -/
theorem graph_mean (x : (⟨S50000x128, .f32⟩ : BufTy).Contents (Elt Ideal)) (e : (⟨S2x800000, .i32⟩ : BufTy).Contents (Elt Ideal)) (bt : (⟨S50000, .i32⟩ : BufTy).Contents (Elt Ideal)) (w : (⟨S128x128, .f32⟩ : BufTy).Contents (Elt Ideal)) (b : (⟨S128, .f32⟩ : BufTy).Contents (Elt Ideal)) (w' : (⟨S128x128, .f32⟩ : BufTy).Contents (Elt Ideal))
    (b' : (⟨S128, .f32⟩ : BufTy).Contents (Elt Ideal)) :
    (Host.divf (F := Ideal) (φ := .f32)
      (Host.scatterAdd scatter_S64x128_S50000x1_S50000x128_1_0_0_1
        (broadcastInDim S64x128 ![] bcast_S_S64x128 (constant (F := Ideal) S_ FTy.f32 0#32))
        (broadcastInDim S50000x1 ![0] bcast_S50000_S50000x1_0 bt)
        (Cert.ReferenceIdeal.Read.val_main_v84 (F := Ideal) x e w b w' b'))
      (broadcastInDim S64x128 ![0, 1] bcast_S64x1_S64x128_0_1
        (broadcastInDim S64x1 ![0] bcast_S64_S64x1_0
          (maximumf (F := Ideal) (φ := .f32)
            (Host.scatterAdd scatter_S64_S50000x1_S50000_n_0_0_1
              (broadcastInDim S64 ![] bcast_S_S64 (constant (F := Ideal) S_ FTy.f32 0#32))
              (broadcastInDim S50000x1 ![0] bcast_S50000_S50000x1_0 bt)
              (broadcastInDim S50000 ![] bcast_S_S50000 (constant (F := Ideal) S_ FTy.f32 1065353216#32)))
            (broadcastInDim S64 ![] bcast_S_S64 (constant (F := Ideal) S_ FTy.f32 1065353216#32)))))
        : (⟨S64x128, .f32⟩ : BufTy).Contents (Elt Ideal))
      = Cert.ReferenceIdeal.Read.val_main_v96 (F := Ideal) x e bt w b w' b' := rfl
/-- The classifier head over the pooled features is the reference's last stage. -/
theorem head_is_result (x : (⟨S50000x128, .f32⟩ : BufTy).Contents (Elt Ideal)) (e : (⟨S2x800000, .i32⟩ : BufTy).Contents (Elt Ideal)) (bt : (⟨S50000, .i32⟩ : BufTy).Contents (Elt Ideal)) (w : (⟨S128x128, .f32⟩ : BufTy).Contents (Elt Ideal)) (b : (⟨S128, .f32⟩ : BufTy).Contents (Elt Ideal)) (w' : (⟨S128x128, .f32⟩ : BufTy).Contents (Elt Ideal))
    (b' : (⟨S128, .f32⟩ : BufTy).Contents (Elt Ideal)) (wc1 : (⟨S128x64, .f32⟩ : BufTy).Contents (Elt Ideal))
    (bc1 : (⟨S64, .f32⟩ : BufTy).Contents (Elt Ideal)) (wc2 : (⟨S64x1, .f32⟩ : BufTy).Contents (Elt Ideal))
    (bc2 : (⟨S1, .f32⟩ : BufTy).Contents (Elt Ideal)) :
    Cert.Spec.refCls (Cert.ReferenceIdeal.Read.val_main_v96 (F := Ideal) x e bt w b w' b') wc1 bc1 wc2 bc2
      = Cert.ReferenceIdeal.Read.val_main_v111 (F := Ideal) x e bt w b w' b' wc1 bc1 wc2 bc2 := rfl

/-- What is left after the one-pass reading of a stretch of host operations: the reads of an operand through operations
    that do not write it, one rewrite each. -/
macro "finish_reads" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The two short stretches between the aggregate and the next region, from any contents -/

/-- The ReLU's three operations: the result buffer holds the maximum of the operand and zero. -/
theorem relu_stretch (W : Valuation τ sig (Elt Ideal)) :
    StableHlo.after (hostOps1_1 (F := Ideal)) W (Proc.devRef .tc main_v46)
      = maximumf (F := Ideal) (φ := .f32) (W (Proc.devRef .tc main_v45) : (⟨S50000x128, .f32⟩ : BufTy).Contents (Elt Ideal))
          (broadcastInDim S50000x128 ![] bcast_S_S50000x128 (constant (F := Ideal) S_ FTy.f32 0#32)) := by
  dsimp only [hostOps1_1]
  after_results
  rfl
/-- The padding's two operations: the result buffer holds the operand with 3248 rows of the converted pad value below. -/
theorem pad_stretch (W : Valuation τ sig (Elt Ideal)) :
    StableHlo.after (hostOps1_3 (F := Ideal)) W (Proc.devRef .tc main_v47)
      = pad S53248x128 ![0, 0] ![3248, 0] ![0, 0] (W (Proc.devRef .tc main_v46) : (⟨S50000x128, .f32⟩ : BufTy).Contents (Elt Ideal))
          (sitofp (F := Ideal) .f32 (W (Proc.devRef .tc main_c_8) : (⟨S_, .i32⟩ : BufTy).Contents (Elt Ideal)))
          pads_S50000x128_S53248x128_032480_000 h_S_ := by
  dsimp only [hostOps1_3]
  after_results
  rfl

/-! ## Region 1's entry: the first graph-convolution layer, ReLU'd and zero-padded -/

set_option maxHeartbeats 4000000 in
/-- The first layer before its ReLU: the aggregate of region 0's sliced output. -/
theorem W4_v45 (c : Dev nD) :
    W4 m ρ c (Proc.devRef .tc main_v45)
      = Cert.ReferenceIdeal.Read.val_main_v43 (F := Ideal) (A0 m c) (A1 m c) (A3 m c) (A4 m c) := by
  dsimp only [W4, hostOps1]
  after_results_simp
  finish_reads
  rw [W3_v5, W3_v1, W3_v3, W3_arg4]
  rw [Cert.KernelIdeal.LinBridge.slice_lin_pad]
  rw [src_loops, dst_loops]
  rw [src_index, dst_index, dst_column]
  rw [inv_sqrt_degree]
  rw [edge_weights]
  exact layer1_aggregate (A0 m c) (A1 m c) (A3 m c) (A4 m c)

theorem W5_v46 (c : Dev nD) :
    W5 m ρ c (Proc.devRef .tc main_v46)
      = Cert.ReferenceIdeal.Read.val_main_v44 (F := Ideal) (A0 m c) (A1 m c) (A3 m c) (A4 m c) := by
  dsimp only [W5]
  rw [relu_stretch, W4_v45]
  exact layer1_relu (A0 m c) (A1 m c) (A3 m c) (A4 m c)

theorem W6_v46 (c : Dev nD) :
    W6 m ρ c (Proc.devRef .tc main_v46)
      = Cert.ReferenceIdeal.Read.val_main_v44 (F := Ideal) (A0 m c) (A1 m c) (A3 m c) (A4 m c) := by
  have h : W6 m ρ c (Proc.devRef .tc main_v46) = W5 m ρ c (Proc.devRef .tc main_v46) := by
    dsimp only [W6, hostOps1_2]
    after_results
  rw [h]
  exact W5_v46 m ρ c

theorem W6_c8 (c : Dev nD) : W6 m ρ c (Proc.devRef .tc main_c_8) = constantI S_ 32 0#32 := by
  dsimp only [W6, hostOps1_2]
  after_results

theorem W7_v47 (c : Dev nD) :
    W7 m ρ c (Proc.devRef .tc main_v47)
      = pad S53248x128 ![0, 0] ![3248, 0] ![0, 0]
          (Cert.ReferenceIdeal.Read.val_main_v44 (F := Ideal) (A0 m c) (A1 m c) (A3 m c) (A4 m c)) padZ
          pads_S50000x128_S53248x128_032480_000 h_S_ := by
  dsimp only [W7]
  rw [pad_stretch, W6_v46, W6_c8]

theorem W7_v1 (c : Dev nD) : W7 m ρ c (Proc.devRef .tc main_v1) = srcOf (A1 m c) := by
  dsimp only [W7, W6, W5, W4, hostOps1, hostOps1_1, hostOps1_2, hostOps1_3]
  after_results_simp
  exact W3_v1 m ρ c
theorem W7_v3 (c : Dev nD) : W7 m ρ c (Proc.devRef .tc main_v3) = dstOf (A1 m c) := by
  dsimp only [W7, W6, W5, W4, hostOps1, hostOps1_1, hostOps1_2, hostOps1_3]
  after_results_simp
  exact W3_v3 m ρ c
theorem W7_arg2 (c : Dev nD) : W7 m ρ c (Proc.devRef .tc main_arg2) = A2 m c := by
  dsimp only [W7, W6, W5, W4, hostOps1, hostOps1_1, hostOps1_2, hostOps1_3]
  after_results_simp
  exact W3_arg2 m ρ c
theorem W7_arg5 (c : Dev nD) : W7 m ρ c (Proc.devRef .tc main_arg5) = A5 m c := by
  dsimp only [W7, W6, W5, W4, hostOps1, hostOps1_1, hostOps1_2, hostOps1_3]
  after_results_simp
  exact W3_arg5 m ρ c
theorem W7_arg6 (c : Dev nD) : W7 m ρ c (Proc.devRef .tc main_arg6) = A6 m c := by
  dsimp only [W7, W6, W5, W4, hostOps1, hostOps1_1, hostOps1_2, hostOps1_3]
  after_results_simp
  exact W3_arg6 m ρ c
theorem W7_arg7 (c : Dev nD) : W7 m ρ c (Proc.devRef .tc main_arg7) = A7 m c := by
  dsimp only [W7, W6, W5, W4, hostOps1, hostOps1_1, hostOps1_2, hostOps1_3]
  after_results_simp
  exact W3_arg7 m ρ c
theorem W7_arg8 (c : Dev nD) : W7 m ρ c (Proc.devRef .tc main_arg8) = A8 m c := by
  dsimp only [W7, W6, W5, W4, hostOps1, hostOps1_1, hostOps1_2, hostOps1_3]
  after_results_simp
  exact W3_arg8 m ρ c
theorem W7_arg9 (c : Dev nD) : W7 m ρ c (Proc.devRef .tc main_arg9) = A9 m c := by
  dsimp only [W7, W6, W5, W4, hostOps1, hostOps1_1, hostOps1_2, hostOps1_3]
  after_results_simp
  exact W3_arg9 m ρ c
theorem W7_arg10 (c : Dev nD) : W7 m ρ c (Proc.devRef .tc main_arg10) = A10 m c := by
  dsimp only [W7, W6, W5, W4, hostOps1, hostOps1_1, hostOps1_2, hostOps1_3]
  after_results_simp
  exact W3_arg10 m ρ c

/-! ## Region 1's exit: every padded row of the first layer's output against the second weight matrix -/

theorem W8_v48 (c : Dev nD) :
    W8 m ρ c (Proc.devRef .tc main_v48)
      = Cert.Spec.linOut (pad S53248x128 ![0, 0] ![3248, 0] ![0, 0]
          (Cert.ReferenceIdeal.Read.val_main_v44 (F := Ideal) (A0 m c) (A1 m c) (A3 m c) (A4 m c)) padZ
          pads_S50000x128_S53248x128_032480_000 h_S_) (A5 m c) := by
  refine (W8_arr m ρ c 2).trans ?_
  rw [Cert.KernelIdeal.LinBlocks.arr1 (V7 m ρ) c]
  show Cert.Spec.linOut (W7 m ρ c (Proc.devRef .tc main_v47)) (W7 m ρ c (Proc.devRef .tc main_arg5)) = _
  rw [W7_v47, W7_arg5]
theorem W8_v1 (c : Dev nD) : W8 m ρ c (Proc.devRef .tc main_v1) = srcOf (A1 m c) :=
  (W8_of_ne m ρ c main_v1 (by decide)).trans (W7_v1 m ρ c)
theorem W8_v3 (c : Dev nD) : W8 m ρ c (Proc.devRef .tc main_v3) = dstOf (A1 m c) :=
  (W8_of_ne m ρ c main_v3 (by decide)).trans (W7_v3 m ρ c)
theorem W8_arg2 (c : Dev nD) : W8 m ρ c (Proc.devRef .tc main_arg2) = A2 m c :=
  (W8_of_ne m ρ c main_arg2 (by decide)).trans (W7_arg2 m ρ c)
theorem W8_arg6 (c : Dev nD) : W8 m ρ c (Proc.devRef .tc main_arg6) = A6 m c :=
  (W8_of_ne m ρ c main_arg6 (by decide)).trans (W7_arg6 m ρ c)
theorem W8_arg7 (c : Dev nD) : W8 m ρ c (Proc.devRef .tc main_arg7) = A7 m c :=
  (W8_of_ne m ρ c main_arg7 (by decide)).trans (W7_arg7 m ρ c)
theorem W8_arg8 (c : Dev nD) : W8 m ρ c (Proc.devRef .tc main_arg8) = A8 m c :=
  (W8_of_ne m ρ c main_arg8 (by decide)).trans (W7_arg8 m ρ c)
theorem W8_arg9 (c : Dev nD) : W8 m ρ c (Proc.devRef .tc main_arg9) = A9 m c :=
  (W8_of_ne m ρ c main_arg9 (by decide)).trans (W7_arg9 m ρ c)
theorem W8_arg10 (c : Dev nD) : W8 m ρ c (Proc.devRef .tc main_arg10) = A10 m c :=
  (W8_of_ne m ρ c main_arg10 (by decide)).trans (W7_arg10 m ρ c)

/-! ## Region 2's entry: the second layer, pooled per graph; the classifier's biases as rows -/

set_option maxHeartbeats 4000000 in
theorem W9_v100 (c : Dev nD) :
    W9 m ρ c (Proc.devRef .tc main_v100)
      = Cert.ReferenceIdeal.Read.val_main_v96 (F := Ideal) (A0 m c) (A1 m c) (A2 m c) (A3 m c) (A4 m c) (A5 m c) (A6 m c) := by
  dsimp only [W9, hostOps2]
  after_results_simp
  finish_reads
  rw [W8_v48, W8_v1, W8_v3, W8_arg6, W8_arg2]
  rw [Cert.KernelIdeal.LinBridge.slice_lin_pad]
  rw [src_loops, dst_loops]
  rw [src_index, dst_index, dst_column]
  rw [inv_sqrt_degree]
  rw [edge_weights]
  rw [layer2_aggregate]
  exact graph_mean (A0 m c) (A1 m c) (A2 m c) (A3 m c) (A4 m c) (A5 m c) (A6 m c)
theorem W9_v101 (c : Dev nD) : W9 m ρ c (Proc.devRef .tc main_v101) = shapeCast S1x64 (A8 m c) shapeCasts_S64_S1x64 := by
  dsimp only [W9, hostOps2]
  after_results_simp
  rw [W8_arg8]
  rfl
theorem W9_v102 (c : Dev nD) : W9 m ρ c (Proc.devRef .tc main_v102) = shapeCast S1x1 (A10 m c) shapeCasts_S1_S1x1 := by
  dsimp only [W9, hostOps2]
  after_results_simp
  rw [W8_arg10]
  rfl
theorem W9_arg7 (c : Dev nD) : W9 m ρ c (Proc.devRef .tc main_arg7) = A7 m c := by
  dsimp only [W9, hostOps2]
  after_results_simp
  exact W8_arg7 m ρ c
theorem W9_arg9 (c : Dev nD) : W9 m ρ c (Proc.devRef .tc main_arg9) = A9 m c := by
  dsimp only [W9, hostOps2]
  after_results_simp
  exact W8_arg9 m ρ c

/-! ## The result: the classifier region's output array -/

theorem W10_v103 (c : Dev nD) :
    W10 m ρ c (Proc.devRef .tc main_v103)
      = Cert.ReferenceIdeal.Read.val_main_v111 (F := Ideal) (A0 m c) (A1 m c) (A2 m c) (A3 m c) (A4 m c) (A5 m c) (A6 m c)
          (A7 m c) (A8 m c) (A9 m c) (A10 m c) := by
  refine (W10_arr m ρ c 5).trans ?_
  rw [Cert.KernelIdeal.ClsBlocks.arr2 (V9 m ρ) c]
  show k2_pay1 (F := Ideal) (W9 m ρ c (Proc.devRef .tc main_v100)) (W9 m ρ c (Proc.devRef .tc main_arg7))
      (W9 m ρ c (Proc.devRef .tc main_v101)) (W9 m ρ c (Proc.devRef .tc main_arg9)) (W9 m ρ c (Proc.devRef .tc main_v102)) = _
  rw [W9_v100, W9_arg7, W9_v101, W9_arg9, W9_v102]
  rw [Cert.KernelIdeal.ClsMath.cls_eq]
  exact head_is_result (A0 m c) (A1 m c) (A2 m c) (A3 m c) (A4 m c) (A5 m c) (A6 m c) (A7 m c) (A8 m c) (A9 m c) (A10 m c)

end Cert.KernelIdeal.HostChain
end
-- ==== Proof.lean ====
/-
  The certificate's five claims for the two-layer graph-convolution classifier.

  Both programs compute, over the extended reals, the same function of the arguments: two rounds of
  "dense layer, then gather along the edges (self-loops added), weight by 1 / sqrt(deg src · deg dst), add up at the
  targets, add the bias" with a ReLU between them, a mean over each graph's nodes, and a two-layer head ending in the
  logistic function. The kernel program runs the two dense layers as row-blocked matrix products over the zero-padded
  node matrix and slices the padding off again, and runs the head in one block; the reference runs one product over all
  rows and spells the logistic function as 1 / (1 + exp(−z)). Row by row the blocked products are the whole product
  (the padding rows are never read back), the head's two arrangements agree term by term, and every operation in
  between is the same in both programs.

  * the three frames: the kernel programs' are the segment-by-segment runs; the reference's is its run with the result dropped;
  * the idealization rewrote nothing, so there is nothing to preserve;
  * the results: the kernel program's run ends with the result buffer at the classifier region's output array, which is
    read back through the regions and the host operations to the reference's own last stage at the same arguments.
-/
import proofs.«181334_j67791763800740_1_alg».proof.Defs
import proofs.«181334_j67791763800740_1_alg».proof.Proof.Gen.Kernel
import proofs.«181334_j67791763800740_1_alg».proof.Proof.Gen.Kernel.Skeleton
import proofs.«181334_j67791763800740_1_alg».proof.Proof.Gen.Kernel.Launch
import proofs.«181334_j67791763800740_1_alg».proof.Proof.Gen.Kernel.Points
import proofs.«181334_j67791763800740_1_alg».proof.Proof.Gen.Kernel.Frame
import proofs.«181334_j67791763800740_1_alg».proof.Proof.Gen.KernelIdeal
import proofs.«181334_j67791763800740_1_alg».proof.Proof.Gen.KernelIdeal.Skeleton
import proofs.«181334_j67791763800740_1_alg».proof.Proof.Gen.KernelIdeal.Launch
import proofs.«181334_j67791763800740_1_alg».proof.Proof.Gen.KernelIdeal.Points
import proofs.«181334_j67791763800740_1_alg».proof.Proof.Gen.KernelIdeal.Frame
import proofs.«181334_j67791763800740_1_alg».proof.Proof.Gen.ReferenceIdeal
import proofs.«181334_j67791763800740_1_alg».proof.Proof.Gen.Pre_finite_inputs
import proofs.«181334_j67791763800740_1_alg».proof.Proof.Gen.ReferenceIdeal.Run
import proofs.«181334_j67791763800740_1_alg».proof.Proof.Gen.ReferenceIdeal.Read
import proofs.«181334_j67791763800740_1_alg».proof.Proof.RunValue
import proofs.«181334_j67791763800740_1_alg».proof.Proof.HostChain
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the arguments both programs end with the same [64, 1] array of probabilities:
    the kernel program's result buffer read back to the reference's last stage at the kernel's arguments, which are
    the reference's. -/
theorem algebraic : Cert.algebraic_KernelIdeal_ReferenceIdeal := by
  intro m ρ m' ρ' _ hagree
  refine ⟨fun c => Cert.KernelIdeal.Gen.W10 m ρ c (Proc.devRef .tc Cert.KernelIdeal.main_v103),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v111_eq, h0, h1, h2, h3, h4, h5, h6, h7, h8, h9, h10]
  exact (Cert.KernelIdeal.HostChain.W10_v103 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
